-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384 : S_.BroadcastsInDim S16384 (![] : Fin 0 → Fin S16384.rank)
  reducesTo_S16384_S_d0 : S16384.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024 .f32) (main_arg7 : FVec F S1024 .f32) (main_arg8 : FVec F S1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S16384x1024 .f32) (main_arg1 : FVec F S16384 .f32) (main_arg2 : FVec F S16384x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S16384x1024 : Shape := ⟨2, ![16384, 1024]⟩
abbrev S16384 : Shape := ⟨1, ![16384]⟩
abbrev S1024x1024 : Shape := ⟨2, ![1024, 1024]⟩
abbrev S1024 : Shape := ⟨1, ![1024]⟩
abbrev S16384x1 : Shape := ⟨2, ![16384, 1]⟩
abbrev S128x1024 : Shape := ⟨2, ![128, 1024]⟩
abbrev S128x1 : Shape := ⟨2, ![128, 1]⟩
abbrev S128 : Shape := ⟨1, ![128]⟩
abbrev S1x1024 : Shape := ⟨2, ![1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1, .f32⟩
  | .local _ .vmem, ⟨3, _⟩ => ⟨S128x1, .f32⟩
  | .local _ .vmem, ⟨4, _⟩ => ⟨S128x1024, .f32⟩
  | .local _ .vmem, ⟨5, _⟩ => ⟨S128x1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S1024x1024, .f32⟩
  | .local _ .vmem, ⟨18, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v93 : BitVec 1 := Scalar.cmpi .eq arg0 c127_i32
  let v94 : BitVec 32 := Scalar.extui v93
  let c0_i32_39 : BitVec 32 := 0#32
  let v95 : BitVec 1 := Scalar.cmpi .ne v94 c0_i32_39
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  dot_S128x1024_S1024x1024_S128x1024_1_0_0_1_n_n_wf : DotDims.WF S128x1024 S1024x1024 S128x1024 [1] [0] [0] [1] [] []
  dot_S128x1024_S128x1024_S1024x1024_0_0_1_1_n_n_wf : DotDims.WF S128x1024 S128x1024 S1024x1024 [0] [0] [1] [1] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S16384x1.size a
  hwx0_1 : ∀ i : grid0.Coords, EltTy.bits .f32 = 32 ∨ (Rect.block (s := S16384x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S16384x1024.size a
  hwx0_10 : ∀ i : grid0.Coords, EltTy.bits .f32 = 32 ∨ (Rect.block (s := S16384x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S16384x1024.size a
  hwx0_11 : ∀ i : grid0.Coords, EltTy.bits .f32 = 32 ∨ (Rect.block (s := S16384x1024) S128x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .f32 = 32 ∨ (Rect.block (s := S1024x1024) S1024x1024.size (cc0_transform_12 i) (hinb0_12 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_1) S128x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_2) S1024x1024.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384 : Shape := ⟨1, ![16384]⟩
abbrev S1024x1024 : Shape := ⟨2, ![1024, 1024]⟩
abbrev S1024 : Shape := ⟨1, ![1024]⟩
abbrev S_ : Shape := ⟨0, ![]⟩
abbrev S16384x1 : Shape := ⟨2, ![16384, 1]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .i1⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1024x1024, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S_, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384, .f32⟩
  | .hbm, ⟨103, _⟩ => ⟨S16384x1, .f32⟩
  | .hbm, ⟨104, _⟩ => ⟨S_, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x1024, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | .hbm, ⟨118, _⟩ => ⟨S1x1024, .f32⟩
  | .hbm, ⟨119, _⟩ => ⟨S16384x1024, .f32⟩
  | .hbm, ⟨120, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024x1024 : S_.BroadcastsInDim S1024x1024 (![] : Fin 0 → Fin S1024x1024.rank)
  transposes_S1024x1024_S1024x1024_1_0 : S1024x1024.Transposes [1, 0] S1024x1024
  dot_S16384x1024_S1024x1024_S16384x1024_1_0_0_1_n_n_wf : DotDims.WF S16384x1024 S1024x1024 S16384x1024 [1] [0] [0] [1] [] []
  dot_S16384x1024_S16384x1024_S1024x1024_0_0_1_1_n_n_wf : DotDims.WF S16384x1024 S16384x1024 S1024x1024 [0] [0] [1] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S16384x1024_S1024x1024_0_0_1_1_n_n : DotDims S16384x1024 S16384x1024 S1024x1024 where
  lhsContracting := [0]
  rhsContracting := [0]
  lhsNonContracting := [1]
  rhsNonContracting := [1]
  lhsBatch := []
  rhsBatch := []
  wf := dot_S16384x1024_S16384x1024_S1024x1024_0_0_1_1_n_n_wf

class Facts : Prop extends Facts₀ where

variable [Facts]
-- ==== Proof.Spec.lean ====
/-
  The layer as mathematics, one row at a time, on the extended reals.

  A batch row `x : Fin 1024 → EReal` is normalised (`lnorm`: subtract the row's mean, scale by the reciprocal root of
  its variance plus ε, then the affine pair γ, β), driven through the synapse matrix and added to the decayed previous
  potential (`pot`), passed through the leaky rectifier (`act`), mixed with the raw row by a logistic gate
  (`resid`) and normalised again (`out`).  The plasticity term for synapse `(i, j)` adds, over all batch rows `b`,
  `(act_b i · contribution_b) · act_b j` (`hebbTerm`), and the new synapse weight is the decayed old weight plus the
  learning rate times that sum divided by the batch size, clamped to [-1, 1] (`newSyn`).

  Every float literal is kept as the binary word both programs print; none is evaluated here.
  A row of a rank-2 array, a matrix and a vector are read off their index functions by `rowOf`, `matOf`, `vecOf`,
  so that a 128-row block and the 16384-row array are rows of ONE row function.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- One batch row, or one per-feature parameter vector. -/
abbrev Row := Fin 1024 → EReal
/-- A 1024 × 1024 matrix by its two coordinates. -/
abbrev Mat := Fin 1024 → Fin 1024 → EReal

/-- Row `r` of a rank-2 array with 1024 columns. -/
abbrev rowOf {n : Nat} (A : (⟨2, ![n, 1024]⟩ : Shape).Idx → EReal) (r : Fin n) : Row := fun k => A (ix2 r k)
/-- A square array by coordinates. -/
abbrev matOf (A : (⟨2, ![1024, 1024]⟩ : Shape).Idx → EReal) : Mat := fun a b => A (ix2 a b)
/-- A rank-1 array by its coordinate. -/
abbrev vecOf (v : (⟨1, ![1024]⟩ : Shape).Idx → EReal) : Row := fun k => v (ix1 k)

/-- The mean of a row: its sum divided by 1024. -/
def mean (x : Row) : EReal :=
  Ideal.div (∑ k, x k) (Ideal.ofBits .f32 0x44800000#32)

/-- The row minus its mean. -/
def centered (x : Row) : Row := fun j => x j - mean x

/-- The reciprocal root of the row's variance plus ε. -/
def rstd (x : Row) : EReal :=
  Ideal.rsqrt (Ideal.div (∑ k, centered x k * centered x k)
      (Ideal.ofBits .f32 0x44800000#32) + Ideal.ofBits .f32 0x3727C5AC#32)

/-- Layer normalisation of a row with scale `g` and shift `b`. -/
def lnorm (x g b : Row) : Row := fun j => centered x j * rstd x * g j + b j

/-- The new membrane potential: 0.9 · previous + (normalised row) · W. -/
def pot (x p : Row) (W : Mat) (g b : Row) : Row := fun j =>
  Ideal.ofBits .f32 0x3F666666#32 * p j + ∑ k, lnorm x g b k * W k j

/-- The leaky rectifier: `v` where `v ≥ 0`, else 0.01 · v. -/
def leaky (v : EReal) : EReal :=
  Scalar.select (Ideal.cmp .oge v (Ideal.ofBits .f32 0x00000000#32)) v (Ideal.ofBits .f32 0x3C23D70A#32 * v)

/-- The activation of a row. -/
def act (x p : Row) (W : Mat) (g b : Row) : Row := fun j => leaky (pot x p W g b j)

/-- The gate on the raw row: logistic of (row · Gᵀ + bias). -/
def gate (x : Row) (G : Mat) (gb : Row) : Row := fun j => Ideal.logistic ((∑ k, x k * G j k) + gb j)

/-- The gated residual: gate · activation + (1 − gate) · row. -/
def resid (x p : Row) (W G : Mat) (gb g b : Row) : Row := fun j =>
  gate x G gb j * act x p W g b j + (Ideal.ofBits .f32 0x3F800000#32 - gate x G gb j) * x j

/-- The layer's output row: the residual, normalised with the second affine pair. -/
def out (x p : Row) (W G : Mat) (gb g b lg lb : Row) : Row := lnorm (resid x p W G gb g b) lg lb

/-- One batch row's contribution to the plasticity sum at synapse `(i, j)`. -/
def hebbTerm (a : Row) (cb : EReal) (i j : Fin 1024) : EReal := (a i * cb) * a j

/-- The new synapse weight from the old weight `w` and the plasticity sum `h`. -/
def newSyn (w h : EReal) : EReal :=
  min (Ideal.ofBits .f32 0x3F800000#32) (max (Ideal.ofBits .f32 0xBF800000#32)
    (w * Ideal.ofBits .f32 0x3F7FBE77#32
      + Ideal.ofBits .f32 0x3C23D70A#32 * Ideal.div h (Ideal.ofBits .f32 0x46800000#32)))

/-! ## The three results as whole-array functions of the ten arguments -/

section Whole

variable (X P : (⟨2, ![16384, 1024]⟩ : Shape).Idx → EReal) (Cb : (⟨1, ![16384]⟩ : Shape).Idx → EReal)
  (W G : (⟨2, ![1024, 1024]⟩ : Shape).Idx → EReal) (gb pg pb lg lb : (⟨1, ![1024]⟩ : Shape).Idx → EReal)

/-- The potential array. -/
def potArr : (⟨2, ![16384, 1024]⟩ : Shape).Idx → EReal := fun i =>
  pot (rowOf X (i 0)) (rowOf P (i 0)) (matOf W) (vecOf pg) (vecOf pb) (i 1)

/-- The output array. -/
def outArr : (⟨2, ![16384, 1024]⟩ : Shape).Idx → EReal := fun i =>
  out (rowOf X (i 0)) (rowOf P (i 0)) (matOf W) (matOf G) (vecOf gb) (vecOf pg) (vecOf pb) (vecOf lg) (vecOf lb) (i 1)

/-- The activation of batch row `b`. -/
def actRow (b : Fin 16384) : Row := act (rowOf X b) (rowOf P b) (matOf W) (vecOf pg) (vecOf pb)

/-- The plasticity sum over the whole batch. -/
def hebbAll (i j : Fin 1024) : EReal := ∑ b : Fin 16384, hebbTerm (actRow X P W pg pb b) (Cb (ix1 b)) i j

/-- The new synapse array. -/
def synArr : (⟨2, ![1024, 1024]⟩ : Shape).Idx → EReal := fun i =>
  newSyn (W (ix2 (i 0) (i 1))) (hebbAll X P Cb W pg pb (i 0) (i 1))

end Whole

end Cert.Spec

end
-- ==== Proof.Laws.lean ====
/-
  The one law that joins the two arrangements of the plasticity sum: a sum over the 16384 batch rows is the sum over
  the 128 blocks of the sums over each block's 128 rows.  Only commutativity and associativity of addition are used, so
  it holds in any commutative additive monoid — in particular on the extended reals, infinities included.
-/
import Mathlib.Algebra.BigOperators.Fin
import Mathlib.Algebra.BigOperators.Group.Finset.Basic
import Mathlib.Logic.Equiv.Fin.Basic

open scoped BigOperators

namespace Cert.Laws

/-- Row `r` of block `t` is batch row `128 · t + r`. -/
def rowIn (t r : Fin 128) : Fin 16384 := ⟨128 * t.val + r.val, by have := t.isLt; have := r.isLt; omega⟩

theorem rowIn_val (t r : Fin 128) : (rowIn t r).val = 128 * t.val + r.val := rfl

/-- The batch sum, block by block. -/
theorem sum_blocks {M : Type*} [AddCommMonoid M] (f : Fin 16384 → M) :
    ∑ b : Fin 16384, f b = ∑ t : Fin 128, ∑ r : Fin 128, f (rowIn t r) := by
  rw [← Fintype.sum_prod_type' (fun t r => f (rowIn t r))]
  rw [← Equiv.sum_comp (finProdFinEquiv (m := 128) (n := 128)) f]
  refine Finset.sum_congr rfl fun x _ => congrArg f (Fin.ext ?_)
  rw [rowIn_val]
  simp [finProdFinEquiv]
  omega

/-- A sum over the first 128 naturals of a function that is a `Fin 128` function below 128. -/
theorem sum_range_128 {M : Type*} [AddCommMonoid M] (g : Fin 128 → M) (z : M) :
    ∑ s ∈ Finset.range 128, (if h : s < 128 then g ⟨s, h⟩ else z) = ∑ t : Fin 128, g t := by
  rw [Finset.sum_range]
  exact Finset.sum_congr rfl fun t _ => dif_pos t.isLt

end Cert.Laws
-- ==== Proof.LibLayoutCols.lean ====
/-
  Keep-dimensions column layouts read at an index given by coordinates, beside the library's row forms
  (Lib/ValueLayout.lean has `[a] → [1, a]` and `[1, b] → [a, b]`):

  • `shapeCast_a_a1_apply`   an `[a]` array cast to a column `[a, 1]` reads, at `(i, u)`, the operand at `i`;
  • `broadcastTo_a1_ab_apply` a column `[a, 1]` broadcast along its rows to `[a, b]` reads, at `(p, c)`, the column at `p`;
  • `multiReduction_add_rows` at the ideal values a lane sum of an `[a, b]` array over its second axis is, at row `r`,
    the plain sum over `k : Fin b` of the array at `(r, k)`.

  These are what a row statistic computed with `keepdims=True` (a row mean, a row variance) lowers to.
-/
import Idealize.ShloMosaic.Lib.Pipeline.Value
import Idealize.ShloMosaic.Lib.ValueIdx
import Idealize.ShloMosaic.PureOps.Ideal.Laws

open scoped BigOperators

namespace Cert.LibLayoutCols

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` array over its second axis is, at row `r`, the sum over the row. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (funext fun ax => Fin.ext (by
    match ax with
    | ⟨0, _⟩ => rfl
    | ⟨1, _⟩ => rfl))

end Cert.LibLayoutCols
-- ==== Proof.KernelPay.lean ====
/-
  The kernel body's arithmetic, read at one element of a 128-row block at the ideal values.

  The body's stored values are pure terms of the block's loads (the generated payloads).  Here each is read at the
  element `(r, j)` and shown to be the row function of the specification applied to row `r` of the loaded blocks:
  the potential, the activation, the output, and — for the carried accumulator — the old accumulator plus the
  block's 128 plasticity terms.
-/
import proofs.«119260_j84138409329109_1_alg».proof.Proof.Gen.KernelIdeal.Skeleton
import proofs.«119260_j84138409329109_1_alg».proof.Proof.Spec
import proofs.«119260_j84138409329109_1_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec Cert.LibLayoutCols

/-! ## The three matrix products as plain sums -/

/-- (rows × features) · (features × features): contract the left's columns with the right's rows. -/
theorem matmul_rows_W (A : FVec Ideal S128x1024 .bf16) (B : FVec Ideal S1024x1024 .bf16) (r : Fin 128) (j : Fin 1024) :
    matmul dot_S128x1024_S1024x1024_S128x1024_1_0_0_1_n_n none A B (constant S128x1024 .f32 0x00000000#32) (ix2 r j)
      = ∑ k : Fin 1024, A (ix2 r k) * B (ix2 k j) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r j) ((contrEquiv1 dot_S128x1024_S1024x1024_S128x1024_1_0_0_1_n_n 1024 rfl rfl).symm k) = ix2 r k := funext fun a => Fin.ext (by
    match a with
    | ⟨0, _⟩ =>
      show (dot_S128x1024_S1024x1024_S128x1024_1_0_0_1_n_n.lhsIdx _ _ (0 : Fin S128x1024.rank)).val = _
      unfold DotDims.lhsIdx
      rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
      rfl
    | ⟨1, _⟩ => exact (dot_S128x1024_S1024x1024_S128x1024_1_0_0_1_n_n.lhsIdx_val_of_single rfl _ _).trans hk)
  have er : dot_S128x1024_S1024x1024_S128x1024_1_0_0_1_n_n.rhsIdx (ix2 r j) ((contrEquiv1 dot_S128x1024_S1024x1024_S128x1024_1_0_0_1_n_n 1024 rfl rfl).symm k) = ix2 k j := funext fun a => Fin.ext (by
    match a with
    | ⟨0, _⟩ => exact (dot_S128x1024_S1024x1024_S128x1024_1_0_0_1_n_n.rhsIdx_val_of_single rfl _ _).trans hk
    | ⟨1, _⟩ =>
      show (dot_S128x1024_S1024x1024_S128x1024_1_0_0_1_n_n.rhsIdx _ _ (1 : Fin S1024x1024.rank)).val = _
      unfold DotDims.rhsIdx
      rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
      rfl)
  rw [el, er]

/-- (rows × features)ᵀ · (rows × features): contract the two operands' rows; the result is features × features. -/
theorem matmul_outer (A B : FVec Ideal S128x1024 .bf16) (i j : Fin 1024) :
    matmul dot_S128x1024_S128x1024_S1024x1024_0_0_1_1_n_n none A B (constant S1024x1024 .f32 0x00000000#32) (ix2 i j)
      = ∑ r : Fin 128, A (ix2 r i) * B (ix2 r j) := by
  simp only [matmul]
  rw [Ideal.matmul_constant_zero_apply, ← Equiv.sum_comp (contrEquiv1 dot_S128x1024_S128x1024_S1024x1024_0_0_1_1_n_n 128 rfl rfl).symm]
  refine Finset.sum_congr rfl fun k _ => ?_
  have hk := contrEquiv1_symm_val dot_S128x1024_S128x1024_S1024x1024_0_0_1_1_n_n 128 rfl rfl k
  have el : dot_S128x1024_S128x1024_S1024x1024_0_0_1_1_n_n.lhsIdx (ix2 i j) ((contrEquiv1 dot_S128x1024_S128x1024_S1024x1024_0_0_1_1_n_n 128 rfl rfl).symm k) = ix2 k i := funext fun a => Fin.ext (by
    match a with
    | ⟨0, _⟩ => exact (dot_S128x1024_S128x1024_S1024x1024_0_0_1_1_n_n.lhsIdx_val_of_single rfl _ _).trans hk
    | ⟨1, _⟩ =>
      show (dot_S128x1024_S128x1024_S1024x1024_0_0_1_1_n_n.lhsIdx _ _ (1 : Fin S128x1024.rank)).val = _
      unfold DotDims.lhsIdx
      rw [dif_neg (show ¬(1 : Fin S128x1024.rank) ∈ dot_S128x1024_S128x1024_S1024x1024_0_0_1_1_n_n.lhsBatch by decide), dif_pos (show (1 : Fin S128x1024.rank) ∈ dot_S128x1024_S128x1024_S1024x1024_0_0_1_1_n_n.lhsNonContracting by decide)]
      rfl)
  have er : dot_S128x1024_S128x1024_S1024x1024_0_0_1_1_n_n.rhsIdx (ix2 i j) ((contrEquiv1 dot_S128x1024_S128x1024_S1024x1024_0_0_1_1_n_n 128 rfl rfl).symm k) = ix2 k j := funext fun a => Fin.ext (by
    match a with
    | ⟨0, _⟩ => exact (dot_S128x1024_S128x1024_S1024x1024_0_0_1_1_n_n.rhsIdx_val_of_single rfl _ _).trans hk
    | ⟨1, _⟩ =>
      show (dot_S128x1024_S128x1024_S1024x1024_0_0_1_1_n_n.rhsIdx _ _ (1 : Fin S128x1024.rank)).val = _
      unfold DotDims.rhsIdx
      rw [dif_neg (show ¬(1 : Fin S128x1024.rank) ∈ dot_S128x1024_S128x1024_S1024x1024_0_0_1_1_n_n.rhsBatch by decide), dif_pos (show (1 : Fin S128x1024.rank) ∈ dot_S128x1024_S128x1024_S1024x1024_0_0_1_1_n_n.rhsNonContracting by decide)]
      rfl)
  rw [el, er]

/-- (rows × features) · (features × features)ᵀ: contract the two operands' columns. -/
theorem matmul_rows_Gt (A : FVec Ideal S128x1024 .bf16) (B : FVec Ideal S1024x1024 .bf16) (r : Fin 128) (j : Fin 1024) :
    matmul dot_S128x1024_S1024x1024_S128x1024_1_1_0_0_n_n none A B (constant S128x1024 .f32 0x00000000#32) (ix2 r j)
      = ∑ k : Fin 1024, A (ix2 r k) * B (ix2 j k) := by
  simp only [matmul]
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r j) ((contrEquiv1 dot_S128x1024_S1024x1024_S128x1024_1_1_0_0_n_n 1024 rfl rfl).symm k) = ix2 r k := funext fun a => Fin.ext (by
    match a with
    | ⟨0, _⟩ =>
      show (dot_S128x1024_S1024x1024_S128x1024_1_1_0_0_n_n.lhsIdx _ _ (0 : Fin S128x1024.rank)).val = _
      unfold DotDims.lhsIdx
      rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
      rfl
    | ⟨1, _⟩ => exact (dot_S128x1024_S1024x1024_S128x1024_1_1_0_0_n_n.lhsIdx_val_of_single rfl _ _).trans hk)
  have er : dot_S128x1024_S1024x1024_S128x1024_1_1_0_0_n_n.rhsIdx (ix2 r j) ((contrEquiv1 dot_S128x1024_S1024x1024_S128x1024_1_1_0_0_n_n 1024 rfl rfl).symm k) = ix2 j k := funext fun a => Fin.ext (by
    match a with
    | ⟨0, _⟩ =>
      show (dot_S128x1024_S1024x1024_S128x1024_1_1_0_0_n_n.rhsIdx _ _ (0 : Fin S1024x1024.rank)).val = _
      unfold DotDims.rhsIdx
      rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
      rfl
    | ⟨1, _⟩ => exact (dot_S128x1024_S1024x1024_S128x1024_1_1_0_0_n_n.rhsIdx_val_of_single rfl _ _).trans hk)
  rw [el, er]

/-! ## Row statistics of a 128-row block -/

/-- The column of row means of a block, as the body computes it. -/
def meanCol (v : FVec Ideal S128x1024 .f32) : FVec Ideal S128x1 .f32 :=
  divf (shapeCast S128x1 (multiReduction .add [1] S128 v 0x00000000#32 reduces_S128x1024_S128 (.inl rfl) rfl) shapeCasts_S128_S128x1)
    (broadcast S128x1 (Scalar.ofBits .f32 0x44800000#32))

/-- The block with each row's mean subtracted. -/
def cen (v : FVec Ideal S128x1024 .f32) : FVec Ideal S128x1024 .f32 :=
  subf v (broadcastTo S128x1024 (meanCol v) broadcasts_S128x1_S128x1024)

/-- The column of reciprocal roots of the rows' variances plus ε. -/
def rstdCol (v : FVec Ideal S128x1024 .f32) : FVec Ideal S128x1 .f32 :=
  rsqrt (addf (meanCol (mulf (cen v) (cen v))) (broadcast S128x1 (Scalar.ofBits .f32 0x3727C5AC#32)))

/-- A per-feature vector laid along every row of the block. -/
def rowVec (g : Vec Ideal S1024 .f32) : FVec Ideal S128x1024 .f32 :=
  broadcastTo S128x1024 (shapeCast S1x1024 g shapeCasts_S1024_S1x1024) broadcasts_S1x1024_S128x1024

/-- The block normalised row by row, with scale `g` and shift `b`. -/
def lnVec (v : FVec Ideal S128x1024 .f32) (g b : Vec Ideal S1024 .f32) : FVec Ideal S128x1024 .f32 :=
  addf (mulf (mulf (cen v) (broadcastTo S128x1024 (rstdCol v) broadcasts_S128x1_S128x1024)) (rowVec g)) (rowVec b)

theorem meanCol_apply (v : FVec Ideal S128x1024 .f32) (r : Fin 128) (u : Fin 1) :
    meanCol v (ix2 r u) = mean (rowOf v r) := by
  show Ideal.div (shapeCast S128x1 _ shapeCasts_S128_S128x1 (ix2 r u)) (Ideal.ofBits .f32 0x44800000#32) = _
  rw [shapeCast_a_a1_apply]
  exact congrArg (fun s => Ideal.div s (Ideal.ofBits .f32 0x44800000#32))
    (multiReduction_add_rows v 0x00000000#32 reduces_S128x1024_S128 (.inl rfl) rfl r)

theorem cen_apply (v : FVec Ideal S128x1024 .f32) (r : Fin 128) (j : Fin 1024) :
    cen v (ix2 r j) = centered (rowOf v r) j := by
  show v (ix2 r j) - broadcastTo S128x1024 (meanCol v) broadcasts_S128x1_S128x1024 (ix2 r j) = _
  rw [broadcastTo_a1_ab_apply, meanCol_apply]
  rfl

theorem rstdCol_apply (v : FVec Ideal S128x1024 .f32) (r : Fin 128) (u : Fin 1) :
    rstdCol v (ix2 r u) = rstd (rowOf v r) := by
  show Ideal.rsqrt (meanCol (mulf (cen v) (cen v)) (ix2 r u) + Ideal.ofBits .f32 0x3727C5AC#32) = _
  rw [meanCol_apply]
  unfold rstd mean
  refine congrArg (fun s => Ideal.rsqrt (Ideal.div s _ + _)) (Finset.sum_congr rfl fun k _ => ?_)
  show cen v (ix2 r k) * cen v (ix2 r k) = _
  rw [cen_apply]

theorem rowVec_apply (g : Vec Ideal S1024 .f32) (r : Fin 128) (j : Fin 1024) :
    rowVec g (ix2 r j) = vecOf g j := by
  unfold rowVec
  rw [broadcastTo_1b_ab_apply, shapeCast_a_1a_apply]

theorem lnVec_apply (v : FVec Ideal S128x1024 .f32) (g b : Vec Ideal S1024 .f32) (r : Fin 128) (j : Fin 1024) :
    lnVec v g b (ix2 r j) = lnorm (rowOf v r) (vecOf g) (vecOf b) j := by
  show cen v (ix2 r j) * broadcastTo S128x1024 (rstdCol v) broadcasts_S128x1_S128x1024 (ix2 r j) * rowVec g (ix2 r j) + rowVec b (ix2 r j) = _
  rw [broadcastTo_a1_ab_apply, cen_apply, rstdCol_apply, rowVec_apply, rowVec_apply]
  rfl

/-! ## The payloads at an element -/

section Payloads

variable (x0 : Vec Ideal S128x1024 .f32) (x1 : Vec Ideal S128x1 .f32) (x2 : Vec Ideal S128x1024 .f32)
  (x3 x4 : Vec Ideal S1024x1024 .f32) (x5 x6 x7 x8 x9 : Vec Ideal S1024 .f32)

/-- The potential block, as the body computes it: 0.9 · previous + (normalised block) · W. -/
theorem pay4_eq :
    k0_pay4 (F := Ideal) x0 x6 x7 x3 x2
      = addf (mulf (broadcast S128x1024 (Scalar.ofBits .f32 0x3F666666#32)) x2)
          (matmul dot_S128x1024_S1024x1024_S128x1024_1_0_0_1_n_n none (truncf .bf16 (lnVec x0 x6 x7) bitsLt_bf16_f32)
            (truncf .bf16 x3 bitsLt_bf16_f32) (constant S128x1024 .f32 0x00000000#32)) := rfl

/-- The potential at `(r, j)` is the row function `pot` of row `r`. -/
theorem pot_apply (r : Fin 128) (j : Fin 1024) :
    k0_pay4 (F := Ideal) x0 x6 x7 x3 x2 (ix2 r j) = pot (rowOf x0 r) (rowOf x2 r) (matOf x3) (vecOf x6) (vecOf x7) j := by
  rw [pay4_eq]
  show Ideal.ofBits .f32 0x3F666666#32 * x2 (ix2 r j) + matmul (F := Ideal) _ none _ _ _ (ix2 r j) = _
  rw [matmul_rows_W]
  unfold pot
  refine congrArg (_ + ·) (Finset.sum_congr rfl fun k _ => ?_)
  show lnVec x0 x6 x7 (ix2 r k) * x3 (ix2 k j) = _
  rw [lnVec_apply]

/-- The activation block: the leaky rectifier of the potential block. -/
abbrev actVec : FVec Ideal S128x1024 .f32 :=
  k0_pay7 (F := Ideal) (k0_pay4 x0 x6 x7 x3 x2) (k0_pay5 x0 x6 x7 x3 x2) k0_pay6

theorem act_apply (r : Fin 128) (j : Fin 1024) :
    actVec x0 x2 x3 x6 x7 (ix2 r j) = act (rowOf x0 r) (rowOf x2 r) (matOf x3) (vecOf x6) (vecOf x7) j := by
  show Scalar.select (Ideal.cmp .oge (k0_pay4 (F := Ideal) x0 x6 x7 x3 x2 (ix2 r j)) (Ideal.ofBits .f32 0x00000000#32))
      (k0_pay4 (F := Ideal) x0 x6 x7 x3 x2 (ix2 r j))
      (Ideal.ofBits .f32 0x3C23D70A#32 * k0_pay4 (F := Ideal) x0 x6 x7 x3 x2 (ix2 r j)) = _
  rw [pot_apply]
  rfl

/-- One accumulation step: the stored accumulator is the loaded one plus the block's 128 plasticity terms. -/
theorem acc_step_apply (acc : Vec Ideal S1024x1024 .f32) (i j : Fin 1024) :
    k0_pay8 (F := Ideal) (k0_pay4 x0 x6 x7 x3 x2) (k0_pay5 x0 x6 x7 x3 x2) k0_pay6 x1 acc (ix2 i j)
      = acc (ix2 i j) + ∑ r : Fin 128,
          hebbTerm (act (rowOf x0 r) (rowOf x2 r) (matOf x3) (vecOf x6) (vecOf x7)) (x1 (ix2 r (0 : Fin 1))) i j := by
  unfold k0_pay8
  rw [shapeCast_self, shapeCast_self]
  show acc (ix2 i j) + matmul (F := Ideal) _ none _ _ _ (ix2 i j) = _
  rw [matmul_outer]
  refine congrArg (_ + ·) (Finset.sum_congr rfl fun r _ => ?_)
  show (actVec x0 x2 x3 x6 x7 (ix2 r i) * broadcastTo S128x1024 x1 broadcasts_S128x1_S128x1024 (ix2 r i))
      * actVec x0 x2 x3 x6 x7 (ix2 r j) = _
  rw [broadcastTo_a1_ab_apply, act_apply, act_apply]
  rfl

/-- The gated residual block, as the body computes it. -/
def resVec : FVec Ideal S128x1024 .f32 :=
  addf (mulf (logistic (addf (matmul dot_S128x1024_S1024x1024_S128x1024_1_1_0_0_n_n none (truncf .bf16 x0 bitsLt_bf16_f32)
        (truncf .bf16 x4 bitsLt_bf16_f32) (constant S128x1024 .f32 0x00000000#32)) (rowVec x5))) (actVec x0 x2 x3 x6 x7))
    (mulf (subf (broadcast S128x1024 (Scalar.ofBits .f32 0x3F800000#32))
        (logistic (addf (matmul dot_S128x1024_S1024x1024_S128x1024_1_1_0_0_n_n none (truncf .bf16 x0 bitsLt_bf16_f32)
          (truncf .bf16 x4 bitsLt_bf16_f32) (constant S128x1024 .f32 0x00000000#32)) (rowVec x5)))) x0)

theorem resVec_apply (r : Fin 128) (j : Fin 1024) :
    resVec x0 x2 x3 x4 x5 x6 x7 (ix2 r j)
      = resid (rowOf x0 r) (rowOf x2 r) (matOf x3) (matOf x4) (vecOf x5) (vecOf x6) (vecOf x7) j := by
  have hg : logistic (addf (matmul dot_S128x1024_S1024x1024_S128x1024_1_1_0_0_n_n none (truncf .bf16 x0 bitsLt_bf16_f32)
        (truncf .bf16 x4 bitsLt_bf16_f32) (constant S128x1024 .f32 0x00000000#32)) (rowVec x5)) (ix2 r j)
      = gate (rowOf x0 r) (matOf x4) (vecOf x5) j := by
    show Ideal.logistic (matmul (F := Ideal) _ none _ _ _ (ix2 r j) + rowVec x5 (ix2 r j)) = _
    rw [matmul_rows_Gt, rowVec_apply]
    rfl
  show logistic _ (ix2 r j) * actVec x0 x2 x3 x6 x7 (ix2 r j)
      + (Ideal.ofBits .f32 0x3F800000#32 - logistic _ (ix2 r j)) * x0 (ix2 r j) = _
  rw [hg, act_apply]
  rfl

/-- The centred residual and its reciprocal deviation are the row statistics of the residual block. -/
theorem pay9_eq :
    k0_pay9 (F := Ideal) x0 (k0_pay4 x0 x6 x7 x3 x2) (k0_pay5 x0 x6 x7 x3 x2) k0_pay6 x4 x5 = cen (resVec x0 x2 x3 x4 x5 x6 x7) := rfl

theorem pay10_eq :
    k0_pay10 (F := Ideal) x0 (k0_pay4 x0 x6 x7 x3 x2) (k0_pay5 x0 x6 x7 x3 x2) k0_pay6 x4 x5 = rstdCol (resVec x0 x2 x3 x4 x5 x6 x7) := rfl

/-- The output block at `(r, j)` is the row function `out` of row `r`. -/
theorem out_apply (r : Fin 128) (j : Fin 1024) :
    k0_pay1 (F := Ideal) (k0_pay9 x0 (k0_pay4 x0 x6 x7 x3 x2) (k0_pay5 x0 x6 x7 x3 x2) k0_pay6 x4 x5)
        (k0_pay10 x0 (k0_pay4 x0 x6 x7 x3 x2) (k0_pay5 x0 x6 x7 x3 x2) k0_pay6 x4 x5) x8 x9 (ix2 r j)
      = out (rowOf x0 r) (rowOf x2 r) (matOf x3) (matOf x4) (vecOf x5) (vecOf x6) (vecOf x7) (vecOf x8) (vecOf x9) j := by
  rw [pay9_eq, pay10_eq]
  show lnVec (resVec x0 x2 x3 x4 x5 x6 x7) x8 x9 (ix2 r j) = _
  rw [lnVec_apply]
  unfold out
  refine congrArg (fun row : Row => lnorm row (vecOf x8) (vecOf x9) j) (funext fun k => ?_)
  exact resVec_apply x0 x2 x3 x4 x5 x6 x7 r k

end Payloads

/-- The new synapse weight from the old weight block and the finished accumulator: decay, add the scaled mean, clamp. -/
theorem newSyn_apply (w acc : Vec Ideal S1024x1024 .f32) (i : S1024x1024.Idx) :
    k0_pay2 (F := Ideal) w acc i = newSyn (w i) (acc i) := rfl

/-- The accumulator's reset value is the zero word everywhere. -/
theorem reset_apply (i : S1024x1024.Idx) : k0_pay3 (F := Ideal) i = Ideal.ofBits .f32 0x00000000#32 := by
  unfold k0_pay3
  rw [shapeCast_self]
  rfl

end Cert.KernelIdeal.Pay

end
-- ==== Proof.Pieces.lean ====
/-
  What each control case of the body leaves in the output blocks and in the carried accumulator, as the body's pure
  payloads of the loaded blocks.

  The body runs in three cases: the first grid point (which first resets the accumulator), the middle points, and the
  last point (which also writes the new synapse block).  In every case the output block is the payload of the
  normalised residual and the potential block is the potential payload; the accumulator is the accumulation step of
  what it held (the reset value at the first point); at the last point the synapse block is the clamp payload of the
  weight block and the accumulator just stored.
-/
import proofs.«119260_j84138409329109_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S1024x1024 .f32) (harg13 : arg13.IsWhole) (arg14 : Memref sig .tc .vmem S1024x1024 .f32) (harg14 : arg14.IsWhole)
  (x0 : Vec F S128x1024 .f32) (x1 : Vec F S128x1 .f32) (x2 : Vec F S128x1024 .f32) (x3 : Vec F S1024x1024 .f32) (x4 : Vec F S1024x1024 .f32) (x5 : Vec F S1024 .f32) (x6 : Vec F S1024 .f32) (x7 : Vec F S1024 .f32) (x8 : Vec F S1024 .f32) (x9 : Vec F S1024 .f32) (xs0 : Vec F S1024x1024 .f32)

/-! ## Case A: the first point -/

/-- The potential block stored at the first point. -/
theorem pot_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay4 x0 x6 x7 x3 x2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- The output block stored at the first point. -/
theorem out_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay1 (k0_pay9 x0 (k0_pay4 x0 x6 x7 x3 x2) (k0_pay5 x0 x6 x7 x3 x2) k0_pay6 x4 x5) (k0_pay10 x0 (k0_pay4 x0 x6 x7 x3 x2) (k0_pay5 x0 x6 x7 x3 x2) k0_pay6 x4 x5) x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-! ## Case B: a middle point -/

/-- The potential block stored at a middle point. -/
theorem pot_B (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay4 x0 x6 x7 x3 x2 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- The output block stored at a middle point. -/
theorem out_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay1 (k0_pay9 x0 (k0_pay4 x0 x6 x7 x3 x2) (k0_pay5 x0 x6 x7 x3 x2) k0_pay6 x4 x5) (k0_pay10 x0 (k0_pay4 x0 x6 x7 x3 x2) (k0_pay5 x0 x6 x7 x3 x2) k0_pay6 x4 x5) x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-! ## Case C: the last point -/

/-- The potential block stored at the last point. -/
theorem pot_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay4 x0 x6 x7 x3 x2 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- The output block stored at the last point. -/
theorem out_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay1 (k0_pay9 x0 (k0_pay4 x0 x6 x7 x3 x2) (k0_pay5 x0 x6 x7 x3 x2) k0_pay6 x4 x5) (k0_pay10 x0 (k0_pay4 x0 x6 x7 x3 x2) (k0_pay5 x0 x6 x7 x3 x2) k0_pay6 x4 x5) x8 x9 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-! ## The carried accumulator -/

/-- At the first point the accumulator is reset and then takes the block's step. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay8 (k0_pay4 x0 x6 x7 x3 x2) (k0_pay5 x0 x6 x7 x3 x2) k0_pay6 x1 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S1024x1024) hz2, View.readCov_unit_zero (S := S1024x1024) _ hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- At a middle point it takes the block's step from what the point before left. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay8 (k0_pay4 x0 x6 x7 x3 x2) (k0_pay5 x0 x6 x7 x3 x2) k0_pay6 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- At the last point likewise. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay8 (k0_pay4 x0 x6 x7 x3 x2) (k0_pay5 x0 x6 x7 x3 x2) k0_pay6 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

/-- The synapse block stored at the last point: the clamp payload of the weight block and the accumulator just stored. -/
theorem syn_C (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay2 x3 (k0_pay8 (k0_pay4 x0 x6 x7 x3 x2) (k0_pay5 x0 x6 x7 x3 x2) k0_pay6 x1 xs0) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz2]
  simp only [View.readAt_eq_ld, View.readCov_unit_zero (S := S1024x1024) _ hz2, harg1.read_unread, harg2.read_unread, harg3.read_unread, harg4.read_unread, harg5.read_unread, harg6.read_unread, harg7.read_unread, harg8.read_unread, harg9.read_unread, harg10.read_unread, harg14.read_unread, View.ld_unit_zero (S := S128x1024) hz2, View.ld_unit_zero (S := S1024x1024) hz2, View.ld_unit_zero (S := S128x1) hz2, View.ld_unit_zero (S := S1024) hz1]

end Cert.KernelIdeal.Pieces

end
-- ==== Proof.KernelValue.lean ====
/-
  From blocks to whole arrays: what the kernel's three result arrays hold after the run, as functions of the ten
  argument arrays.

  Grid point `t` stages rows `128·t … 128·t + 127` of the inputs, the previous potential and the contribution column,
  and the whole of every parameter array; it writes rows `128·t …` of the output and of the potential.  So row `r` of
  point `t`'s blocks is batch row `128·t + r`, each written block is that block of one whole-array function, and the
  128 blocks tile the two big result arrays.  The carried accumulator after point `n` is the reset value plus the
  plasticity sums of blocks `0 … n`; the last point turns it into the new synapse array, whose one block is the array.
-/
import proofs.«119260_j84138409329109_1_alg».proof.Proof.Gen.KernelIdeal.Value
import proofs.«119260_j84138409329109_1_alg».proof.Proof.Spec
import proofs.«119260_j84138409329109_1_alg».proof.Proof.Laws
import proofs.«119260_j84138409329109_1_alg».proof.Proof.LibLayoutCols
import proofs.«119260_j84138409329109_1_alg».proof.Proof.KernelPay
import proofs.«119260_j84138409329109_1_alg».proof.Proof.Pieces
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.KernelIdeal.Pay Cert.KernelIdeal.Pieces
open Cert.Spec Cert.Laws Cert.LibLayoutCols

variable (m : (ℓ : Loc nD τ sig) → Buf (Elt Ideal) ℓ) (ρ : Dev nD → PrngReg)

/-- Grid point `t` as a block number below 128. -/
def blkNo (t : Fin cfg0.N) : Fin 128 := ⟨t.val, lt_of_lt_of_eq t.isLt N_0⟩

/-- The printed index maps, decided once over the grid: the row-blocked windows sit at block row `t`, column block 0;
    the parameter windows and the synapse result at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 1) = 0 ∧ win0_9.index t (0 : Fin 1) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = 0 ∧ win0_12.index t (1 : Fin 2) = 0 :=
  (by decide +kernel : ∀ t : Fin grid0.N, _)

/-! ## The input blocks as rows of the arguments -/

/-- Row `r` of the inputs' block at point `t` is batch row `128·t + r` of the inputs. -/
theorem blkX_apply (c : Dev nD) (t : Fin cfg0.N) (r : Fin 128) (k : Fin 1024) :
    (iblk m c 0 t : Vec Ideal S128x1024 .f32) (ix2 r k)
      = (m ((c : Thread nD τ).loc main_arg0) : S16384x1024.Idx → Elt Ideal .f32) (ix2 (rowIn (blkNo t) r) k) := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 128 + 1 * r.val = 128 * t.val + r.val; rw [e0]; omega
  | ⟨1, _⟩ => show win0_0.index t (1 : Fin 2) * 1024 + 1 * k.val = k.val; rw [e1]; omega

/-- Row `r` of the previous potential's block at point `t` is batch row `128·t + r`. -/
theorem blkP_apply (c : Dev nD) (t : Fin cfg0.N) (r : Fin 128) (k : Fin 1024) :
    (iblk m c 2 t : Vec Ideal S128x1024 .f32) (ix2 r k)
      = (m ((c : Thread nD τ).loc main_arg2) : S16384x1024.Idx → Elt Ideal .f32) (ix2 (rowIn (blkNo t) r) k) := by
  obtain ⟨-, -, -, -, e0, e1, -⟩ := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 128 + 1 * r.val = 128 * t.val + r.val; rw [e0]; omega
  | ⟨1, _⟩ => show win0_2.index t (1 : Fin 2) * 1024 + 1 * k.val = k.val; rw [e1]; omega

/-- The contribution column the region finds is the contribution vector recast as a column. -/
theorem V_contrib (c : Dev nD) :
    (V m c main_v0 : S16384x1.Idx → Elt Ideal .f32)
      = shapeCast S16384x1 (m ((c : Thread nD τ).loc main_arg1)) shapeCasts_S16384_S16384x1 := by
  dsimp only [Gen.V, Gen.hostOps0]
  after_results
  rfl

/-- Entry `r` of the contribution block at point `t` is the contribution of batch row `128·t + r`. -/
theorem blkC_apply (c : Dev nD) (t : Fin cfg0.N) (r : Fin 128) (u : Fin 1) :
    (iblk m c 1 t : Vec Ideal S128x1 .f32) (ix2 r u)
      = (m ((c : Thread nD τ).loc main_arg1) : S16384.Idx → Elt Ideal .f32) (ix1 (rowIn (blkNo t) r)) := by
  obtain ⟨-, -, e0, e1, -⟩ := idx_facts t
  unfold iblk
  rw [View.read_apply]
  show V m c main_v0 _ = _
  rw [V_contrib]
  have hu : u.val = 0 := by omega
  refine (congrArg _ (funext fun a => Fin.ext ?_)).trans
    (shapeCast_a_a1_apply (m ((c : Thread nD τ).loc main_arg1)) shapeCasts_S16384_S16384x1 (rowIn (blkNo t) r) (0 : Fin 1))
  match a with
  | ⟨0, _⟩ => show win0_1.index t (0 : Fin 2) * 128 + 1 * r.val = 128 * t.val + r.val; rw [e0]; omega
  | ⟨1, _⟩ => show win0_1.index t (1 : Fin 2) * 1 + 1 * u.val = 0; rw [e1, hu]

/-- The synapse block is the whole synapse array. -/
theorem blkW_eq (c : Dev nD) (t : Fin cfg0.N) :
    (iblk m c 3 t : Vec Ideal S1024x1024 .f32) = m ((c : Thread nD τ).loc main_arg3) := by
  have e0 := (idx_facts t).2.2.2.2.2.2.1
  have e1 := (idx_facts t).2.2.2.2.2.2.2.1
  funext y
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- The gate-matrix block is the whole gate matrix. -/
theorem blkG_eq (c : Dev nD) (t : Fin cfg0.N) :
    (iblk m c 4 t : Vec Ideal S1024x1024 .f32) = m ((c : Thread nD τ).loc main_arg4) := by
  have e0 := (idx_facts t).2.2.2.2.2.2.2.2.1
  have e1 := (idx_facts t).2.2.2.2.2.2.2.2.2.1
  funext y
  unfold iblk
  rw [View.read_apply]
  show V m c main_arg4 _ = m (c.tc.loc main_arg4) _
  rw [V_main_arg4]
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- Each per-feature parameter block is the whole parameter vector. -/
theorem blk5_eq (c : Dev nD) (t : Fin cfg0.N) : (iblk m c 5 t : Vec Ideal S1024 .f32) = m ((c : Thread nD τ).loc main_arg5) := by
  have e0 := (idx_facts t).2.2.2.2.2.2.2.2.2.2.1
  funext y
  unfold iblk
  rw [View.read_apply]
  show V m c main_arg5 _ = m (c.tc.loc main_arg5) _
  rw [V_main_arg5]
  refine congrArg _ (funext fun a => Fin.ext ?_)
  match a with
  | ⟨0, _⟩ => show win0_5.index t (0 : Fin 1) * 1024 + 1 * (y 0).val = (y 0).val; rw [e0]; omega

theorem blk6_eq (c : Dev nD) (t : Fin cfg0.N) : (iblk m c 6 t : Vec Ideal S1024 .f32) = m ((c : Thread nD τ).loc main_arg6) := by
  have e0 := (idx_facts t).2.2.2.2.2.2.2.2.2.2.2.1
  funext y
  unfold iblk
  rw [View.read_apply]
  show V m c main_arg6 _ = m (c.tc.loc main_arg6) _
  rw [V_main_arg6]
  refine congrArg _ (funext fun a => Fin.ext ?_)
  match a with
  | ⟨0, _⟩ => show win0_6.index t (0 : Fin 1) * 1024 + 1 * (y 0).val = (y 0).val; rw [e0]; omega

theorem blk7_eq (c : Dev nD) (t : Fin cfg0.N) : (iblk m c 7 t : Vec Ideal S1024 .f32) = m ((c : Thread nD τ).loc main_arg7) := by
  have e0 := (idx_facts t).2.2.2.2.2.2.2.2.2.2.2.2.1
  funext y
  unfold iblk
  rw [View.read_apply]
  show V m c main_arg7 _ = m (c.tc.loc main_arg7) _
  rw [V_main_arg7]
  refine congrArg _ (funext fun a => Fin.ext ?_)
  match a with
  | ⟨0, _⟩ => show win0_7.index t (0 : Fin 1) * 1024 + 1 * (y 0).val = (y 0).val; rw [e0]; omega

theorem blk8_eq (c : Dev nD) (t : Fin cfg0.N) : (iblk m c 8 t : Vec Ideal S1024 .f32) = m ((c : Thread nD τ).loc main_arg8) := by
  have e0 := (idx_facts t).2.2.2.2.2.2.2.2.2.2.2.2.2.1
  funext y
  unfold iblk
  rw [View.read_apply]
  show V m c main_arg8 _ = m (c.tc.loc main_arg8) _
  rw [V_main_arg8]
  refine congrArg _ (funext fun a => Fin.ext ?_)
  match a with
  | ⟨0, _⟩ => show win0_8.index t (0 : Fin 1) * 1024 + 1 * (y 0).val = (y 0).val; rw [e0]; omega

theorem blk9_eq (c : Dev nD) (t : Fin cfg0.N) : (iblk m c 9 t : Vec Ideal S1024 .f32) = m ((c : Thread nD τ).loc main_arg9) := by
  have e0 := (idx_facts t).2.2.2.2.2.2.2.2.2.2.2.2.2.2.1
  funext y
  unfold iblk
  rw [View.read_apply]
  show V m c main_arg9 _ = m (c.tc.loc main_arg9) _
  rw [V_main_arg9]
  refine congrArg _ (funext fun a => Fin.ext ?_)
  match a with
  | ⟨0, _⟩ => show win0_9.index t (0 : Fin 1) * 1024 + 1 * (y 0).val = (y 0).val; rw [e0]; omega

/-- Rows of the row-blocked inputs at point `t`. -/
theorem rowX (c : Dev nD) (t : Fin cfg0.N) (r : Fin 128) :
    rowOf (iblk m c 0 t : Vec Ideal S128x1024 .f32) r = rowOf (m ((c : Thread nD τ).loc main_arg0)) (rowIn (blkNo t) r) :=
  funext fun k => blkX_apply m c t r k

theorem rowP (c : Dev nD) (t : Fin cfg0.N) (r : Fin 128) :
    rowOf (iblk m c 2 t : Vec Ideal S128x1024 .f32) r = rowOf (m ((c : Thread nD τ).loc main_arg2)) (rowIn (blkNo t) r) :=
  funext fun k => blkP_apply m c t r k

/-! ## The output and potential arrays -/

/-- The output array the kernel leaves: the specification's, of the argument arrays on core `c`. -/
abbrev outOf (c : Dev nD) : S16384x1024.Idx → EReal :=
  outArr (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The potential array the kernel leaves. -/
abbrev potOf (c : Dev nD) : S16384x1024.Idx → EReal :=
  potArr (m ((c : Thread nD τ).loc main_arg0)) (m ((c : Thread nD τ).loc main_arg2)) (m ((c : Thread nD τ).loc main_arg3))
    (m ((c : Thread nD τ).loc main_arg6)) (m ((c : Thread nD τ).loc main_arg7))

/-- The potential payload of point `t`'s blocks is block `t` of the potential array. -/
theorem potBlock_eq (c : Dev nD) (t : Fin cfg0.N) :
    (k0_pay4 (F := Ideal) (iblk m c 0 t) (iblk m c 6 t) (iblk m c 7 t) (iblk m c 3 t) (iblk m c 2 t) : Vec Ideal S128x1024 .f32)
      = fun y : S128x1024.Idx => potOf m c (ix2 (rowIn (blkNo t) (y 0)) (y 1)) := by
  funext y
  obtain ⟨r, j, rfl⟩ : ∃ (r : Fin 128) (j : Fin 1024), y = ix2 r j := ⟨y 0, y 1, eq_ix2 y⟩
  refine (pot_apply (iblk m c 0 t) (iblk m c 2 t) (iblk m c 3 t) (iblk m c 6 t) (iblk m c 7 t) r j).trans ?_
  rw [rowX, rowP, blkW_eq, blk6_eq, blk7_eq]
  rfl

/-- The output payload of point `t`'s blocks is block `t` of the output array. -/
theorem outBlock_eq (c : Dev nD) (t : Fin cfg0.N) :
    (k0_pay1 (F := Ideal)
        (k0_pay9 (iblk m c 0 t) (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 4 t) (iblk m c 5 t))
        (k0_pay10 (iblk m c 0 t) (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 4 t) (iblk m c 5 t))
        (iblk m c 8 t) (iblk m c 9 t) : Vec Ideal S128x1024 .f32)
      = fun y : S128x1024.Idx => outOf m c (ix2 (rowIn (blkNo t) (y 0)) (y 1)) := by
  funext y
  obtain ⟨r, j, rfl⟩ : ∃ (r : Fin 128) (j : Fin 1024), y = ix2 r j := ⟨y 0, y 1, eq_ix2 y⟩
  refine (out_apply (iblk m c 0 t) (iblk m c 2 t) (iblk m c 3 t) (iblk m c 4 t) (iblk m c 5 t) (iblk m c 6 t) (iblk m c 7 t)
    (iblk m c 8 t) (iblk m c 9 t) r j).trans ?_
  rw [rowX, rowP, blkW_eq, blkG_eq, blk5_eq, blk6_eq, blk7_eq, blk8_eq, blk9_eq]
  rfl

/-- What point `t` writes back to the potential array is block `t` of the potential array. -/
theorem flushed11_eq (c : Dev nD) (t : Fin cfg0.N) (hf : (cfg0.win 11).flush t = true) :
    (dats m 0 c).flushed 11 t = ((cfg0.win 11).blk t).view.read (Elt Ideal) (potOf m c) := by
  have hN : t.val < 128 := lt_of_lt_of_eq t.isLt N_0
  have e0 := (idx_facts t).2.2.2.2.2.2.2.2.2.2.2.2.2.2.2.2.2.1
  have e1 := (idx_facts t).2.2.2.2.2.2.2.2.2.2.2.2.2.2.2.2.2.2.1
  have key : (dats m 0 c).flushed 11 t = (cfg0.win 11).cut (grid0.coords t)
      (k0_pay4 (F := Ideal) (iblk m c 0 t) (iblk m c 6 t) (iblk m c 7 t) (iblk m c 3 t) (iblk m c 2 t)) := by
    by_cases h0 : t.val % 128 = 0
    · have h1 : ¬t.val % 128 = 127 := by omega
      rw [flushed11_A m c t h0 h1, pot_A]
    · by_cases h1 : t.val % 128 = 127
      · rw [flushed11_C m c t h0 h1, pot_C]
      · rw [flushed11_B m c t h0 h1, pot_B]
  rw [key, potBlock_eq]
  funext y
  rw [View.read_apply]
  show potOf m c (ix2 (rowIn (blkNo t) (y 0)) (y 1)) = potOf m c (((cfg0.win 11).blk t).view.emb y)
  refine congrArg _ (funext fun a => Fin.ext ?_)
  match a with
  | ⟨0, _⟩ => show 128 * t.val + (y 0).val = win0_11.index t (0 : Fin 2) * 128 + 1 * (y 0).val; rw [e0]; omega
  | ⟨1, _⟩ => show (y 1).val = win0_11.index t (1 : Fin 2) * 1024 + 1 * (y 1).val; rw [e1]; omega

/-- What point `t` writes back to the output array is block `t` of the output array. -/
theorem flushed10_eq (c : Dev nD) (t : Fin cfg0.N) (hf : (cfg0.win 10).flush t = true) :
    (dats m 0 c).flushed 10 t = ((cfg0.win 10).blk t).view.read (Elt Ideal) (outOf m c) := by
  have hN : t.val < 128 := lt_of_lt_of_eq t.isLt N_0
  have e0 := (idx_facts t).2.2.2.2.2.2.2.2.2.2.2.2.2.2.2.1
  have e1 := (idx_facts t).2.2.2.2.2.2.2.2.2.2.2.2.2.2.2.2.1
  have key : (dats m 0 c).flushed 10 t = (cfg0.win 10).cut (grid0.coords t)
      (k0_pay1 (F := Ideal)
        (k0_pay9 (iblk m c 0 t) (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 4 t) (iblk m c 5 t))
        (k0_pay10 (iblk m c 0 t) (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 4 t) (iblk m c 5 t))
        (iblk m c 8 t) (iblk m c 9 t)) := by
    by_cases h0 : t.val % 128 = 0
    · have h1 : ¬t.val % 128 = 127 := by omega
      rw [flushed10_A m c t h0 h1, out_A]
    · by_cases h1 : t.val % 128 = 127
      · rw [flushed10_C m c t h0 h1, out_C]
      · rw [flushed10_B m c t h0 h1, out_B]
  rw [key, outBlock_eq]
  funext y
  rw [View.read_apply]
  show outOf m c (ix2 (rowIn (blkNo t) (y 0)) (y 1)) = outOf m c (((cfg0.win 10).blk t).view.emb y)
  refine congrArg _ (funext fun a => Fin.ext ?_)
  match a with
  | ⟨0, _⟩ => show 128 * t.val + (y 0).val = win0_10.index t (0 : Fin 2) * 128 + 1 * (y 0).val; rw [e0]; omega
  | ⟨1, _⟩ => show (y 1).val = win0_10.index t (1 : Fin 2) * 1024 + 1 * (y 1).val; rw [e1]; omega

/-- Batch row `b` lies in the block of grid point `b / 128`. -/
def pointOf (i : S16384x1024.Idx) : Fin cfg0.N :=
  ⟨(i 0).val / 128, by
    have h : (i 0).val < 16384 := (i 0).isLt
    rw [show cfg0.N = 128 from N_0]; omega⟩

/-- The 128 output blocks tile the output array, so it ends holding the specification's output array. -/
theorem final10 (c : Dev nD) : (dats m 0 c).arrAt 10 cfg0.N = outOf m c :=
  (dats m 0 c).arrAt_eq_of_cover 10 (outOf m c) (flushed10_eq m c) fun i =>
    ⟨pointOf i, flush0_10 _, by
      have e0 := (idx_facts (pointOf i)).2.2.2.2.2.2.2.2.2.2.2.2.2.2.2.1
      have e1 := (idx_facts (pointOf i)).2.2.2.2.2.2.2.2.2.2.2.2.2.2.2.2.1
      have hv : (pointOf i).val = (i 0).val / 128 := rfl
      show i ∈ ((View.whole main_v1_0).slice (win0_10.rect (pointOf i))).set
      rw [View.set_slice_whole, Rect.mem_set_unit]
      intro a
      have h0 : (i 0 : Nat) < 16384 := (i 0).isLt
      have h1 : (i 1 : Nat) < 1024 := (i 1).isLt
      match a with
      | ⟨0, _⟩ =>
        show win0_10.index (pointOf i) (0 : Fin 2) * 128 ≤ (i 0 : Nat) ∧ (i 0 : Nat) < win0_10.index (pointOf i) (0 : Fin 2) * 128 + 128
        rw [e0, hv]; omega
      | ⟨1, _⟩ =>
        show win0_10.index (pointOf i) (1 : Fin 2) * 1024 ≤ (i 1 : Nat) ∧ (i 1 : Nat) < win0_10.index (pointOf i) (1 : Fin 2) * 1024 + 1024
        rw [e1]; omega⟩

/-- The 128 potential blocks tile the potential array likewise. -/
theorem final11 (c : Dev nD) : (dats m 0 c).arrAt 11 cfg0.N = potOf m c :=
  (dats m 0 c).arrAt_eq_of_cover 11 (potOf m c) (flushed11_eq m c) fun i =>
    ⟨pointOf i, flush0_11 _, by
      have e0 := (idx_facts (pointOf i)).2.2.2.2.2.2.2.2.2.2.2.2.2.2.2.2.2.1
      have e1 := (idx_facts (pointOf i)).2.2.2.2.2.2.2.2.2.2.2.2.2.2.2.2.2.2.1
      have hv : (pointOf i).val = (i 0).val / 128 := rfl
      show i ∈ ((View.whole main_v1_1).slice (win0_11.rect (pointOf i))).set
      rw [View.set_slice_whole, Rect.mem_set_unit]
      intro a
      have h0 : (i 0 : Nat) < 16384 := (i 0).isLt
      have h1 : (i 1 : Nat) < 1024 := (i 1).isLt
      match a with
      | ⟨0, _⟩ =>
        show win0_11.index (pointOf i) (0 : Fin 2) * 128 ≤ (i 0 : Nat) ∧ (i 0 : Nat) < win0_11.index (pointOf i) (0 : Fin 2) * 128 + 128
        rw [e0, hv]; omega
      | ⟨1, _⟩ =>
        show win0_11.index (pointOf i) (1 : Fin 2) * 1024 ≤ (i 1 : Nat) ∧ (i 1 : Nat) < win0_11.index (pointOf i) (1 : Fin 2) * 1024 + 1024
        rw [e1]; omega⟩

/-! ## The carried accumulator and the synapse array -/

/-- The new synapse array the kernel leaves: the specification's, of the argument arrays on core `c`. -/
abbrev synOf (c : Dev nD) : S1024x1024.Idx → EReal :=
  synArr (m ((c : Thread nD τ).loc main_arg0)) (m ((c : Thread nD τ).loc main_arg2)) (m ((c : Thread nD τ).loc main_arg1))
    (m ((c : Thread nD τ).loc main_arg3)) (m ((c : Thread nD τ).loc main_arg6)) (m ((c : Thread nD τ).loc main_arg7))

/-- One batch row's plasticity term at synapse `y`, on core `c`. -/
abbrev termOf (c : Dev nD) (b : Fin 16384) (y : S1024x1024.Idx) : EReal :=
  hebbTerm (actRow (m ((c : Thread nD τ).loc main_arg0)) (m ((c : Thread nD τ).loc main_arg2)) (m ((c : Thread nD τ).loc main_arg3))
      (m ((c : Thread nD τ).loc main_arg6)) (m ((c : Thread nD τ).loc main_arg7)) b)
    ((m ((c : Thread nD τ).loc main_arg1) : S16384.Idx → EReal) (ix1 b)) (y 0) (y 1)

/-- Block `t`'s plasticity sum: the terms of its 128 rows. -/
def tile (c : Dev nD) (t : Fin 128) (y : S1024x1024.Idx) : EReal := ∑ r : Fin 128, termOf m c (rowIn t r) y

/-- The same for every natural number of a block, zero past the grid. -/
def tileAt (c : Dev nD) (n : ℕ) (y : S1024x1024.Idx) : EReal := if h : n < 128 then tile m c ⟨n, h⟩ y else 0

/-- The accumulation step at point `t` adds block `t`'s plasticity sum to what the accumulator held. -/
theorem step_at (c : Dev nD) (t : Fin cfg0.N) (acc : Vec Ideal S1024x1024 .f32) (y : S1024x1024.Idx) :
    k0_pay8 (F := Ideal) (k0_pay4 (iblk m c 0 t) (iblk m c 6 t) (iblk m c 7 t) (iblk m c 3 t) (iblk m c 2 t))
        (k0_pay5 (iblk m c 0 t) (iblk m c 6 t) (iblk m c 7 t) (iblk m c 3 t) (iblk m c 2 t)) k0_pay6 (iblk m c 1 t) acc y
      = acc y + tileAt m c t.val y := by
  obtain ⟨i, j, rfl⟩ : ∃ (i j : Fin 1024), y = ix2 i j := ⟨y 0, y 1, eq_ix2 y⟩
  have hN : t.val < 128 := lt_of_lt_of_eq t.isLt N_0
  refine (acc_step_apply (iblk m c 0 t) (iblk m c 1 t) (iblk m c 2 t) (iblk m c 3 t) (iblk m c 6 t) (iblk m c 7 t) acc i j).trans ?_
  unfold tileAt
  rw [dif_pos hN]
  refine congrArg (_ + ·) (Finset.sum_congr rfl fun r _ => ?_)
  rw [rowX, rowP, blkW_eq, blk6_eq, blk7_eq, blkC_apply]
  rfl

/-- After point `n` the accumulator holds the reset word plus the plasticity sums of blocks `0 … n`. -/
theorem acc_after (c : Dev nD) (n : ℕ) (hn : n < cfg0.N) (y : S1024x1024.Idx) :
    (outsAt0 m c n hn).2.2.2 y = Ideal.ofBits .f32 0x00000000#32 + ∑ s ∈ Finset.range (n + 1), tileAt m c s y := by
  have hN : n < 128 := lt_of_lt_of_eq hn N_0
  rw [soutsAt0_0_sweep m c n hn]
  have h := Pipeline.accAt_add_apply (N := cfg0.N)
    (fun n h => scAt0_0 m c n h (VS0_0.read (Elt Ideal) VS0_0.junk)) (scAt0_0 m c)
    (fun _ => Ideal.ofBits .f32 0x00000000#32) (tileAt m c) 0 127
    (fun h y => by
      show scAt0_0 m c 0 h _ y = _
      unfold scAt0_0
      rw [dif_pos (show 0 % 128 = 0 from rfl), dif_neg (show ¬0 % 128 = 127 by decide), acc_A]
      refine (step_at m c ⟨0, h⟩ (k0_pay3 (F := Ideal)) y).trans ?_
      rw [reset_apply])
    (fun n h acc y hpos hle => by
      have hn128 : n < 128 := lt_of_lt_of_eq h N_0
      have h0 : ¬n % 128 = 0 := by omega
      show scAt0_0 m c n h acc y = _
      unfold scAt0_0
      rw [dif_neg h0]
      by_cases h1 : n % 128 = 127
      · rw [dif_pos h1, acc_C]; exact step_at m c ⟨n, h⟩ acc y
      · rw [dif_neg h1, acc_B]; exact step_at m c ⟨n, h⟩ acc y)
    n (by omega) (by omega) y
  simpa only [Nat.zero_add] using h

/-- The 128 block sums are the sum over the whole batch. -/
theorem tiles_eq_batch (c : Dev nD) (y : S1024x1024.Idx) :
    ∑ s ∈ Finset.range 128, tileAt m c s y = ∑ b : Fin 16384, termOf m c b y := by
  unfold tileAt
  rw [sum_range_128 (fun t => tile m c t y) 0, sum_blocks]
  rfl

/-- The one write-back of the synapse block, after the last point, writes the specification's synapse array. -/
theorem flushed12_eq (c : Dev nD) (t : Fin cfg0.N) (hf : (cfg0.win 12).flush t = true) :
    (dats m 0 c).flushed 12 t = ((cfg0.win 12).blk t).view.read (Elt Ideal) (synOf m c) := by
  have hN : t.val < 128 := lt_of_lt_of_eq t.isLt N_0
  have h1 : t.val % 128 = 127 := (flush0_12 t).mp hf
  have h0 : ¬t.val % 128 = 0 := by omega
  have ht : t.val = 127 := by omega
  have e0 := (idx_facts t).2.2.2.2.2.2.2.2.2.2.2.2.2.2.2.2.2.2.2.1
  have e1 := (idx_facts t).2.2.2.2.2.2.2.2.2.2.2.2.2.2.2.2.2.2.2.2
  have key : (dats m 0 c).flushed 12 t = (cfg0.win 12).cut (grid0.coords t)
      (k0_pay2 (F := Ideal) (iblk m c 3 t)
        (k0_pay8 (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 1 t)
          (outsAt0 m c (t.val - 1) (Nat.lt_of_le_of_lt (Nat.sub_le _ _) t.isLt)).2.2.2)) := by
    rw [flushed12_C m c t h0 h1, syn_C]
  have hv : (k0_pay2 (F := Ideal) (iblk m c 3 t)
        (k0_pay8 (k0_pay4 (iblk m c 0 t) (iblk m c 6 t) (iblk m c 7 t) (iblk m c 3 t) (iblk m c 2 t))
          (k0_pay5 (iblk m c 0 t) (iblk m c 6 t) (iblk m c 7 t) (iblk m c 3 t) (iblk m c 2 t)) k0_pay6 (iblk m c 1 t)
          (outsAt0 m c (t.val - 1) (Nat.lt_of_le_of_lt (Nat.sub_le _ _) t.isLt)).2.2.2) : Vec Ideal S1024x1024 .f32)
      = synOf m c := by
    funext y
    rw [newSyn_apply, step_at, blkW_eq, acc_after]
    have hs : Ideal.ofBits .f32 0x00000000#32 + ∑ s ∈ Finset.range (t.val - 1 + 1), tileAt m c s y + tileAt m c t.val y
        = ∑ b : Fin 16384, termOf m c b y := by
      rw [show t.val - 1 + 1 = 127 by omega, ht, add_assoc, ← Finset.sum_range_succ, Ideal.ofBits_zero_f32, zero_add,
        tiles_eq_batch]
    rw [hs]
    obtain ⟨i, j, rfl⟩ : ∃ (i j : Fin 1024), y = ix2 i j := ⟨y 0, y 1, eq_ix2 y⟩
    rfl
  rw [key, hv]
  funext y
  rw [View.read_apply]
  show synOf m c y = synOf m c (((cfg0.win 12).blk t).view.emb y)
  refine congrArg _ (funext fun a => Fin.ext ?_)
  match a with
  | ⟨0, _⟩ => show (y 0).val = win0_12.index t (0 : Fin 2) * 1024 + 1 * (y 0).val; rw [e0]; omega
  | ⟨1, _⟩ => show (y 1).val = win0_12.index t (1 : Fin 2) * 1024 + 1 * (y 1).val; rw [e1]; omega

/-- The last grid point. -/
def lastPoint : Fin cfg0.N := ⟨127, by rw [show cfg0.N = 128 from N_0]; decide⟩

/-- The synapse block is the whole array, so the array ends holding the specification's synapse array. -/
theorem final12 (c : Dev nD) : (dats m 0 c).arrAt 12 cfg0.N = synOf m c :=
  (dats m 0 c).arrAt_eq_of_cover 12 (synOf m c) (flushed12_eq m c) fun i =>
    ⟨lastPoint, (flush0_12 lastPoint).mpr rfl, by
      have e0 := (idx_facts lastPoint).2.2.2.2.2.2.2.2.2.2.2.2.2.2.2.2.2.2.2.1
      have e1 := (idx_facts lastPoint).2.2.2.2.2.2.2.2.2.2.2.2.2.2.2.2.2.2.2.2
      show i ∈ ((View.whole main_v1_2).slice (win0_12.rect lastPoint)).set
      rw [View.set_slice_whole, Rect.mem_set_unit]
      intro a
      have h0 : (i 0 : Nat) < 1024 := (i 0).isLt
      have h1 : (i 1 : Nat) < 1024 := (i 1).isLt
      match a with
      | ⟨0, _⟩ =>
        show win0_12.index lastPoint (0 : Fin 2) * 1024 ≤ (i 0 : Nat) ∧ (i 0 : Nat) < win0_12.index lastPoint (0 : Fin 2) * 1024 + 1024
        rw [e0]; omega
      | ⟨1, _⟩ =>
        show win0_12.index lastPoint (1 : Fin 2) * 1024 ≤ (i 1 : Nat) ∧ (i 1 : Nat) < win0_12.index lastPoint (1 : Fin 2) * 1024 + 1024
        rw [e1]; omega⟩

/-! ## The run, read -/

/-- The kernel's run with its three result arrays at the specification's functions of the arguments, the arguments unchanged. -/
theorem run : θ_run defs (onTc (τ := τ) (main (F := Ideal))) ⟨m, fun _ => 0, ρ⟩ fun r => ∀ c : Dev nD,
      r.2.mem ((c : Thread nD τ).loc main_v1_0) = outOf m c
      ∧ r.2.mem ((c : Thread nD τ).loc main_v1_1) = potOf m c
      ∧ r.2.mem ((c : Thread nD τ).loc main_v1_2) = synOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
      ⟨(h c).1.trans (final10 m c), (h c).2.1.trans (final11 m c), (h c).2.2.1.trans (final12 m c), (h c).2.2.2⟩)
    (run_blocks m ρ)

end Cert.KernelIdeal.KValue

end
-- ==== Proof.RefValue.lean ====
/-
  The reference program's results, read at an index at the ideal values, are the specification's whole-array functions.

  The reference normalises the whole 16384-row array with keep-dimension row statistics, multiplies by the synapse
  matrix, applies the leaky rectifier, contracts the batch axis of (activation · contribution) against the activation for
  the plasticity sum, and gates the residual with `1 / (1 + exp(−z))`, which at the ideal values is the logistic function
  itself.  Each stage below is the generated read-at-an-index lemma of the stage, chained down to the arguments.
-/
import proofs.«119260_j84138409329109_1_alg».proof.Proof.Gen.ReferenceIdeal.Read
import proofs.«119260_j84138409329109_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Spec

variable (x0 x2 : (⟨S16384x1024, .f32⟩ : BufTy).Contents (Elt Ideal)) (x1 : (⟨S16384, .f32⟩ : BufTy).Contents (Elt Ideal))
  (x3 x4 : (⟨S1024x1024, .f32⟩ : BufTy).Contents (Elt Ideal)) (x5 x6 x7 x8 x9 : (⟨S1024, .f32⟩ : BufTy).Contents (Elt Ideal))

/-- The word 1.0 is the extended real one. -/
theorem ofBits_one : Ideal.ofBits .f32 0x3F800000#32 = 1 := by
  simp [Ideal.ofBits, Ideal.ieee, -EReal.coe_mul]; norm_num

/-- Two rank-2 index functions agree when their coordinates do (each side computes on a literal axis). -/
local macro "idx2" : tactic =>
  `(tactic| exact funext fun a => Fin.ext (by match a with | ⟨0, _⟩ => rfl | ⟨1, _⟩ => rfl))
/-- The same at rank 1. -/
local macro "idx1" : tactic =>
  `(tactic| exact funext fun a => Fin.ext (by match a with | ⟨0, _⟩ => rfl))

/-! ## The first normalisation and the potential -/

theorem mean1 (b : Fin 16384) (u : Fin 1) : val_main_v3 (F := Ideal) x0 (ix2 b u) = mean (rowOf x0 b) := by
  rw [val_main_v3_apply, val_main_v1_apply, val_main_v0_apply, val_main_v2_apply, val_main_cst_0_apply, val_main_cst_apply]
  have e : ∀ k : Fin 1024, idx_main_v0 (idx_main_v1 (ix2 b u)) k = ix2 b k := fun k => by idx2
  simp only [e]
  show Ideal.div (Ideal.ofBits .f32 0x00000000#32 + _) (Ideal.ofBits .f32 0x44800000#32) = _
  rw [Ideal.ofBits_zero_f32, zero_add]
  rfl

theorem cen1 (b : Fin 16384) (j : Fin 1024) : val_main_v5 (F := Ideal) x0 (ix2 b j) = centered (rowOf x0 b) j := by
  have e : idx_main_v4 (ix2 b j) = ix2 b (0 : Fin 1) := by idx2
  rw [val_main_v5_apply, val_main_v4_apply, e, mean1]
  rfl

theorem cen1' (b : Fin 16384) (j : Fin 1024) : val_main_v12 (F := Ideal) x0 (ix2 b j) = centered (rowOf x0 b) j := by
  have e : idx_main_v11 (ix2 b j) = ix2 b (0 : Fin 1) := by idx2
  rw [val_main_v12_apply, val_main_v11_apply, e, mean1]
  rfl

theorem rstd1 (b : Fin 16384) (u : Fin 1) : val_main_v15 (F := Ideal) x0 (ix2 b u) = rstd (rowOf x0 b) := by
  rw [val_main_v15_apply, val_main_v14_apply, val_main_v10_apply, val_main_v8_apply, val_main_v7_apply, val_main_v9_apply,
    val_main_v13_apply, val_main_cst_1_apply, val_main_cst_2_apply, val_main_cst_3_apply]
  have e : ∀ k : Fin 1024, idx_main_v7 (idx_main_v8 (ix2 b u)) k = ix2 b k := fun k => by idx2
  simp only [e, val_main_v6_apply, cen1]
  show Ideal.rsqrt (Ideal.div (Ideal.ofBits .f32 0x00000000#32 + _) (Ideal.ofBits .f32 0x44800000#32)
    + Ideal.ofBits .f32 0x3727C5AC#32) = _
  rw [Ideal.ofBits_zero_f32, zero_add]
  rfl

theorem ln1 (b : Fin 16384) (j : Fin 1024) :
    val_main_v23 (F := Ideal) x0 x6 x7 (ix2 b j) = lnorm (rowOf x0 b) (vecOf x6) (vecOf x7) j := by
  have e16 : idx_main_v16 (ix2 b j) = ix2 b (0 : Fin 1) := by idx2
  have e19 : idx_main_v18 (idx_main_v19 (ix2 b j)) = ix1 j := by idx1
  have e22 : idx_main_v21 (idx_main_v22 (ix2 b j)) = ix1 j := by idx1
  rw [val_main_v23_apply, val_main_v20_apply, val_main_v17_apply, val_main_v16_apply, val_main_v19_apply, val_main_v18_apply,
    val_main_v22_apply, val_main_v21_apply, e16, e19, e22, cen1', rstd1]
  rfl

theorem pot_ref (b : Fin 16384) (j : Fin 1024) :
    val_main_v27 (F := Ideal) x0 x2 x3 x6 x7 (ix2 b j)
      = pot (rowOf x0 b) (rowOf x2 b) (matOf x3) (vecOf x6) (vecOf x7) j := by
  rw [val_main_v27_apply, val_main_v26_apply, val_main_v25_apply, val_main_cst_4_apply, val_main_v24_apply]
  have el : ∀ k : Fin 1024, lidx_main_v24 (ix2 b j) k = ix2 b k := fun k => by idx2
  have er : ∀ k : Fin 1024, ridx_main_v24 (ix2 b j) k = ix2 k j := fun k => by idx2
  simp only [el, er, ln1]
  rfl

theorem act_ref (b : Fin 16384) (j : Fin 1024) :
    val_main_v32 (F := Ideal) x0 x2 x3 x6 x7 (ix2 b j)
      = act (rowOf x0 b) (rowOf x2 b) (matOf x3) (vecOf x6) (vecOf x7) j := by
  rw [val_main_v32_apply, val_main_v29_apply, val_main_v31_apply, val_main_v28_apply, val_main_v30_apply,
    val_main_cst_5_apply, val_main_cst_6_apply, pot_ref]
  rfl

/-! ## The plasticity sum and the new synapse array -/

theorem hebb_ref (i j : Fin 1024) :
    val_main_v36 (F := Ideal) x0 x1 x2 x3 x6 x7 (ix2 i j) = hebbAll x0 x2 x1 x3 x6 x7 i j := by
  rw [val_main_v36_apply]
  have el : ∀ k : Fin 16384, lidx_main_v36 (ix2 i j) k = ix2 k i := fun k => by idx2
  have er : ∀ k : Fin 16384, ridx_main_v36 (ix2 i j) k = ix2 k j := fun k => by idx2
  have ec : ∀ k : Fin 16384, idx_main_v33 (idx_main_v34 (ix2 k i)) = ix1 k := fun k => by idx1
  simp only [el, er, val_main_v35_apply, val_main_v34_apply, val_main_v33_apply, ec, act_ref]
  rfl

theorem syn_ref (i j : Fin 1024) :
    val_main_v44 (F := Ideal) x0 x1 x2 x3 x6 x7 (ix2 i j) = synArr x0 x2 x1 x3 x6 x7 (ix2 i j) := by
  rw [val_main_v44_apply, val_main_call1_v4_apply, val_main_call1_v3_apply, val_main_cst_11_apply, val_main_call1_v2_apply,
    val_main_call1_v1_apply, val_main_call1_v0_apply, val_main_cst_10_apply, val_main_v43_apply, val_main_v40_apply,
    val_main_v39_apply, val_main_cst_8_apply, val_main_v42_apply, val_main_v41_apply, val_main_cst_9_apply,
    val_main_v38_apply, val_main_v37_apply, val_main_cst_7_apply, hebb_ref]
  rfl

/-! ## The gate, the residual and the second normalisation -/

theorem gate_ref (b : Fin 16384) (j : Fin 1024) :
    val_main_v55 (F := Ideal) x0 x4 x5 (ix2 b j) = gate (rowOf x0 b) (matOf x4) (vecOf x5) j := by
  rw [val_main_v55_apply, val_main_v54_apply, val_main_cst_13_apply, val_main_v53_apply, val_main_v52_apply,
    val_main_cst_12_apply, val_main_v51_apply, val_main_v50_apply, val_main_v49_apply, val_main_v46_apply,
    val_main_v48_apply, val_main_v47_apply]
  have el : ∀ k : Fin 1024, lidx_main_v46 (ix2 b j) k = ix2 b k := fun k => by idx2
  have er : ∀ k : Fin 1024, idx_main_v45 (ridx_main_v46 (ix2 b j) k) = ix2 j k := fun k => by idx2
  have eb : idx_main_v47 (idx_main_v48 (ix2 b j)) = ix1 j := by idx1
  simp only [el, val_main_v45_apply, er, eb]
  show Ideal.div (Ideal.ofBits .f32 0x3F800000#32) (Ideal.ofBits .f32 0x3F800000#32 + Ideal.exp (-(_ + _))) = _
  rw [ofBits_one]
  rfl

theorem resid_ref (b : Fin 16384) (j : Fin 1024) :
    val_main_v60 (F := Ideal) x0 x2 x3 x4 x5 x6 x7 (ix2 b j)
      = resid (rowOf x0 b) (rowOf x2 b) (matOf x3) (matOf x4) (vecOf x5) (vecOf x6) (vecOf x7) j := by
  rw [val_main_v60_apply, val_main_v56_apply, val_main_v59_apply, val_main_v58_apply, val_main_v57_apply,
    val_main_cst_14_apply, gate_ref, act_ref]
  rfl

theorem mean2 (b : Fin 16384) (u : Fin 1) :
    val_main_v64 (F := Ideal) x0 x2 x3 x4 x5 x6 x7 (ix2 b u)
      = mean (resid (rowOf x0 b) (rowOf x2 b) (matOf x3) (matOf x4) (vecOf x5) (vecOf x6) (vecOf x7)) := by
  rw [val_main_v64_apply, val_main_v62_apply, val_main_v61_apply, val_main_v63_apply, val_main_cst_16_apply, val_main_cst_15_apply]
  have e : ∀ k : Fin 1024, idx_main_v61 (idx_main_v62 (ix2 b u)) k = ix2 b k := fun k => by idx2
  simp only [e, resid_ref]
  show Ideal.div (Ideal.ofBits .f32 0x00000000#32 + _) (Ideal.ofBits .f32 0x44800000#32) = _
  rw [Ideal.ofBits_zero_f32, zero_add]
  rfl

theorem cen2 (b : Fin 16384) (j : Fin 1024) :
    val_main_v66 (F := Ideal) x0 x2 x3 x4 x5 x6 x7 (ix2 b j)
      = centered (resid (rowOf x0 b) (rowOf x2 b) (matOf x3) (matOf x4) (vecOf x5) (vecOf x6) (vecOf x7)) j := by
  have e : idx_main_v65 (ix2 b j) = ix2 b (0 : Fin 1) := by idx2
  rw [val_main_v66_apply, val_main_v65_apply, e, mean2, resid_ref]
  rfl

theorem cen2' (b : Fin 16384) (j : Fin 1024) :
    val_main_v73 (F := Ideal) x0 x2 x3 x4 x5 x6 x7 (ix2 b j)
      = centered (resid (rowOf x0 b) (rowOf x2 b) (matOf x3) (matOf x4) (vecOf x5) (vecOf x6) (vecOf x7)) j := by
  have e : idx_main_v72 (ix2 b j) = ix2 b (0 : Fin 1) := by idx2
  rw [val_main_v73_apply, val_main_v72_apply, e, mean2, resid_ref]
  rfl

theorem rstd2 (b : Fin 16384) (u : Fin 1) :
    val_main_v76 (F := Ideal) x0 x2 x3 x4 x5 x6 x7 (ix2 b u)
      = rstd (resid (rowOf x0 b) (rowOf x2 b) (matOf x3) (matOf x4) (vecOf x5) (vecOf x6) (vecOf x7)) := by
  rw [val_main_v76_apply, val_main_v75_apply, val_main_v71_apply, val_main_v69_apply, val_main_v68_apply, val_main_v70_apply,
    val_main_v74_apply, val_main_cst_17_apply, val_main_cst_18_apply, val_main_cst_19_apply]
  have e : ∀ k : Fin 1024, idx_main_v68 (idx_main_v69 (ix2 b u)) k = ix2 b k := fun k => by idx2
  simp only [e, val_main_v67_apply, cen2]
  show Ideal.rsqrt (Ideal.div (Ideal.ofBits .f32 0x00000000#32 + _) (Ideal.ofBits .f32 0x44800000#32)
    + Ideal.ofBits .f32 0x3727C5AC#32) = _
  rw [Ideal.ofBits_zero_f32, zero_add]
  rfl

theorem out_ref (b : Fin 16384) (j : Fin 1024) :
    val_main_v84 (F := Ideal) x0 x2 x3 x4 x5 x6 x7 x8 x9 (ix2 b j)
      = out (rowOf x0 b) (rowOf x2 b) (matOf x3) (matOf x4) (vecOf x5) (vecOf x6) (vecOf x7) (vecOf x8) (vecOf x9) j := by
  have e77 : idx_main_v77 (ix2 b j) = ix2 b (0 : Fin 1) := by idx2
  have e80 : idx_main_v79 (idx_main_v80 (ix2 b j)) = ix1 j := by idx1
  have e83 : idx_main_v82 (idx_main_v83 (ix2 b j)) = ix1 j := by idx1
  rw [val_main_v84_apply, val_main_v81_apply, val_main_v78_apply, val_main_v77_apply, val_main_v80_apply, val_main_v79_apply,
    val_main_v83_apply, val_main_v82_apply, e77, e80, e83, cen2', rstd2]
  rfl

/-! ## The three results as whole arrays -/

theorem out_eq : val_main_v84 (F := Ideal) x0 x2 x3 x4 x5 x6 x7 x8 x9 = outArr x0 x2 x3 x4 x5 x6 x7 x8 x9 := by
  funext i
  obtain ⟨b, j, rfl⟩ : ∃ (b : Fin 16384) (j : Fin 1024), i = ix2 b j := ⟨i 0, i 1, eq_ix2 i⟩
  exact out_ref x0 x2 x3 x4 x5 x6 x7 x8 x9 b j

theorem pot_eq : val_main_v27 (F := Ideal) x0 x2 x3 x6 x7 = potArr x0 x2 x3 x6 x7 := by
  funext i
  obtain ⟨b, j, rfl⟩ : ∃ (b : Fin 16384) (j : Fin 1024), i = ix2 b j := ⟨i 0, i 1, eq_ix2 i⟩
  exact pot_ref x0 x2 x3 x6 x7 b j

theorem syn_eq : val_main_v44 (F := Ideal) x0 x1 x2 x3 x6 x7 = synArr x0 x2 x1 x3 x6 x7 := by
  funext i
  obtain ⟨a, b, rfl⟩ : ∃ (a b : Fin 1024), i = ix2 a b := ⟨i 0, i 1, eq_ix2 i⟩
  exact syn_ref x0 x2 x1 x3 x6 x7 a b

end Cert.ReferenceIdeal.RefValue

end
-- ==== Proof.lean ====
/-
  The certificate of the layer kernel against its reference.

  Frames.  The word-level kernel and its idealization run to completion without a fault and leave their ten argument
  arrays unchanged (the generated frame runs); so does the reference, whose run is a straight line of host operations.

  Preserves.  The idealization pass rewrote nothing in this kernel, so there is nothing to restate.

  Algebraic.  At the ideal values both programs end with the same three arrays, as extended reals, element by element:
    • the output and the potential are row-wise — row `b` of either depends only on row `b` of the inputs and of the
      previous potential and on the parameter arrays — and the kernel computes each block of 128 rows exactly as the
      reference computes the whole array (a change of float format is the identity, a matrix product into a zero
      accumulator is the plain sum, the logistic function is `1 / (1 + exp(−z))`);
    • the new synapse array needs the plasticity sum over the whole batch, which the kernel accumulates block by block
      across the grid (reset at the first point, added to at every point, consumed at the last) and the reference
      takes as one contraction over the batch axis: the two are equal because addition of extended reals is commutative
      and associative, with no finiteness needed — the precondition is never opened.
-/
import proofs.«119260_j84138409329109_1_alg».proof.Defs
import proofs.«119260_j84138409329109_1_alg».proof.Proof.Gen.Kernel
import proofs.«119260_j84138409329109_1_alg».proof.Proof.Gen.Kernel.Frame
import proofs.«119260_j84138409329109_1_alg».proof.Proof.Gen.KernelIdeal
import proofs.«119260_j84138409329109_1_alg».proof.Proof.Gen.KernelIdeal.Frame
import proofs.«119260_j84138409329109_1_alg».proof.Proof.Gen.KernelIdeal.Value
import proofs.«119260_j84138409329109_1_alg».proof.Proof.Gen.ReferenceIdeal
import proofs.«119260_j84138409329109_1_alg».proof.Proof.Gen.ReferenceIdeal.Run
import proofs.«119260_j84138409329109_1_alg».proof.Proof.Gen.ReferenceIdeal.Read
import proofs.«119260_j84138409329109_1_alg».proof.Proof.Gen.Pre_finite_inputs
import proofs.«119260_j84138409329109_1_alg».proof.Proof.KernelValue
import proofs.«119260_j84138409329109_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both runs end with the three result arrays at the specification's functions of arguments that agree. -/
theorem algebraic : Cert.algebraic_KernelIdeal_ReferenceIdeal := by
  intro m ρ m' ρ' _ hagree
  refine ⟨fun c => Cert.KernelIdeal.KValue.outOf m c, fun c => Cert.KernelIdeal.KValue.potOf m c,
    fun c => Cert.KernelIdeal.KValue.synOf m c, Cert.KernelIdeal.KValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨?_, ?_, ?_, (h c).2.2.2⟩
  · refine ((h c).1.trans (Cert.ReferenceIdeal.Read.val_main_v84_eq m' c)).trans
      ((Cert.ReferenceIdeal.RefValue.out_eq _ _ _ _ _ _ _ _ _).trans ?_)
    rw [a0, a2, a3, a4, a5, a6, a7, a8, a9]
  · refine ((h c).2.1.trans (Cert.ReferenceIdeal.Read.val_main_v27_eq _ _ _ _ _)).trans
      ((Cert.ReferenceIdeal.RefValue.pot_eq _ _ _ _ _).trans ?_)
    rw [a0, a2, a3, a6, a7]
  · refine ((h c).2.2.1.trans (Cert.ReferenceIdeal.Read.val_main_v44_eq m' c)).trans
      ((Cert.ReferenceIdeal.RefValue.syn_eq _ _ _ _ _ _).trans ?_)
    rw [a0, a1, a2, a3, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
